-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S1000x128 : Shape := ⟨2, ![1000, 128]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_

variable [Facts]

def fn {F : FTy → Type} [FloatOps F] (main_arg0 : FVec F S16384x1000 .f32) (main_arg1 : FVec F S1000x128 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S1000x128 .f32 := Host.absf main_arg1
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  main_v8
-- ==== Kernel.lean ====
abbrev S16384x1000 : Shape := ⟨2, ![16384, 1000]⟩
abbrev S1000x128 : Shape := ⟨2, ![1000, 128]⟩
abbrev S1000x16384 : Shape := ⟨2, ![1000, 16384]⟩
abbrev S16384x128 : Shape := ⟨2, ![16384, 128]⟩
abbrev S1000x2048 : Shape := ⟨2, ![1000, 2048]⟩
abbrev S2048x128 : Shape := ⟨2, ![2048, 128]⟩

abbrev nBuf : Space → Nat
  | .hbm => 4
  | .vmem => 4
  | .smem => 0
  | _ => 0

abbrev bufTy : (tb : Table) → Fin (tcTables nBuf tb) → BufTy
  | .hbm, ⟨0, _⟩ => ⟨S16384x1000, .f32⟩
  | .hbm, ⟨1, _⟩ => ⟨S1000x128, .f32⟩
  | .hbm, ⟨2, _⟩ => ⟨S1000x16384, .f32⟩
  | .hbm, ⟨3, _⟩ => ⟨S16384x128, .f32⟩
  | .local _ .vmem, ⟨0, _⟩ => ⟨S1000x2048, .f32⟩
  | .local _ .vmem, ⟨1, _⟩ => ⟨S1000x2048, .f32⟩
  | .local _ .vmem, ⟨2, _⟩ => ⟨S1000x128, .f32⟩
  | .local _ .vmem, ⟨3, _⟩ => ⟨S16384x128, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c2048_i32 : BitVec 32 := 2048#32
  let v6 : BitVec 32 := Scalar.muli arg0 c2048_i32
  let v7 : Index := Scalar.indexCast v6
  let c0_3 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16384x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S16384x1000_S1000x16384_1_0 : S16384x1000.Transposes [1, 0] S1000x16384
  inb_S1000x2048_S1000x2048_0_0 : ∀ a, (![0, 0] : Fin 2 → Nat) a + S1000x2048.size a ≤ S1000x2048.size a
  h_S1000x2048 : 0 < S1000x2048.numel
  shapeCasts_S1000x2048_S1000x2048 : S1000x2048.ShapeCasts S1000x2048
  bitsLt_bf16_f32 : FTy.bits .bf16 < FTy.bits .f32
  inb_S1000x128_S1000x128_0_0 : ∀ a, (![0, 0] : Fin 2 → Nat) a + S1000x128.size a ≤ S1000x128.size a
  h_S1000x128 : 0 < S1000x128.numel
  h_S2048x128 : 0 < S2048x128.numel
  dot_S1000x2048_S1000x128_S2048x128_0_0_1_1_n_n_wf : DotDims.WF S1000x2048 S1000x128 S2048x128 [0] [0] [1] [1] [] []
  hrank0 : 0 < grid0.rank
  k0_off1_inb : ∀ i : grid0.Coords, ∀ a, (k0_off1 i) a + S2048x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2048.size a ≤ S1000x16384.size a
  hwx0_0 : ∀ i : grid0.Coords, EltTy.bits .f32 = 32 ∨ (Rect.block (s := S1000x16384) S1000x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S1000x128.size a
  hwx0_1 : ∀ i : grid0.Coords, EltTy.bits .f32 = 32 ∨ (Rect.block (s := S1000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16384x128.size a ≤ S16384x128.size a
  hwx0_2 : ∀ i : grid0.Coords, EltTy.bits .f32 = 32 ∨ (Rect.block (s := S16384x128) S16384x128.size (cc0_transform_2 i) (hinb0_2 i)).WholeWords (EltTy.packing .f32)

variable [Facts₀]

def dot_S1000x2048_S1000x128_S2048x128_0_0_1_1_n_n : DotDims S1000x2048 S1000x128 S2048x128 where
  lhsContracting := [0]
  rhsContracting := [0]
  lhsNonContracting := [1]
  rhsNonContracting := [1]
  lhsBatch := []
  rhsBatch := []
  wf := dot_S1000x2048_S1000x128_S2048x128_0_0_1_1_n_n_wf

abbrev win0_0 : Pipeline.Window sig grid0 :=
  Pipeline.Window.ofSpec (Memref.whole main_v0) S1000x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16384x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S1000x128 : Shape := ⟨2, ![1000, 128]⟩
abbrev S16384x128 : Shape := ⟨2, ![16384, 128]⟩

abbrev nBuf : Space → Nat
  | .hbm => 3
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S1000x128, .f32⟩
  | .hbm, ⟨2, _⟩ => ⟨S16384x128, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S16384x1000_S1000x128_S16384x128_1_0_0_1_n_n_wf : DotDims.WF S16384x1000 S1000x128 S16384x128 [1] [0] [0] [1] [] []

variable [Facts₀]

def dot_S16384x1000_S1000x128_S16384x128_1_0_0_1_n_n : DotDims S16384x1000 S1000x128 S16384x128 where
  lhsContracting := [1]
  rhsContracting := [0]
  lhsNonContracting := [0]
  rhsNonContracting := [1]
  lhsBatch := []
  rhsBatch := []
  wf := dot_S16384x1000_S1000x128_S16384x128_1_0_0_1_n_n_wf

class Facts : Prop extends Facts₀ where

variable [Facts]
-- ==== Proof.MatmulSpec.lean ====
/-
  The product of a 16384 × 1000 array of activations with a 1000 × 128 array of weights, on the extended reals:
  entry (r, n) of the result is the sum over the 1000 constants k of x (r, k) · w (k, n). This is the one function both
  programs compute; it is stated once, index by index, over literal extents.
-/
import Idealize.ShloMosaic.PureOps.Ideal
import Idealize.ShloMosaic.Lib.ValueIdx

noncomputable section

namespace Cert.MatmulSpec

open Idealize.ShloMosaic Idealize.ShloMosaic.ValueIdx

/-- The activations' shape, 16384 rows of 1000 constants. -/
abbrev SX : Shape := ⟨2, ![16384, 1000]⟩
/-- The weights' shape, 1000 constants by 128 columns. -/
abbrev SW : Shape := ⟨2, ![1000, 128]⟩
/-- The result's shape, 16384 rows by 128 columns. -/
abbrev SO : Shape := ⟨2, ![16384, 128]⟩

/-- Entry (r, n) of the product: the sum over k of x (r, k) · w (k, n). -/
def entry (x : SX.Idx → EReal) (w : SW.Idx → EReal) (r : Fin 16384) (n : Fin 128) : EReal :=
  ∑ k : Fin 1000, x (ix2 r k) * w (ix2 k n)

/-- The product as one function of the result's index. -/
def prod (x : SX.Idx → EReal) (w : SW.Idx → EReal) : SO.Idx → EReal :=
  fun j => entry x w (j 0) (j 1)

end Cert.MatmulSpec

end
-- ==== Proof.LibSingleWrite.lean ====
/-
  One write into a buffer, read back whole: the buffer's former contents with the written rectangle's part
  replaced by the payload. The prior contents are kept off the rectangle, so a body that fills a buffer one
  rectangle per grid point can say what it leaves from what it found.
-/
import Idealize.ShloMosaic.Lib.Writes
import Idealize.ShloMosaic.Lib.Memref

noncomputable section

namespace Idealize.ShloMosaic.View

variable {sig : RefSig} {κ : Kind} {sp : Space} {s : Shape} {e : EltTy} {Val : EltTy → Type}

/-- A view read after ONE write through rectangle `r` over contents `f` reads the payload on the rectangle and
    what `f` read elsewhere: `r.overlay (read f) w`. -/
theorem read_writes_single (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [read_writes_cons_emb, Rect.overlay_emb]
  · have hy' : y ∉ Finset.univ.map r.emb := by rwa [Rect.map_emb_univ]
    rw [writes_cons, read_slice_write_of_not_mem r _ _ _ hy', Rect.overlay_of_not_mem _ _ _ hy, writes_nil]

end Idealize.ShloMosaic.View

end
-- ==== Proof.BitsBody.lean ====
/-
  The kernel's body and its launch, at any reading of the floats.

  The grid has 8 points. Point t is handed three buffers: a 1000 × 2048 block of the transposed activations
  (columns t·2048 … t·2048 + 2047), the whole 1000 × 128 weight array, and the whole 16384 × 128 result buffer,
  which stays resident over the grid and is written back once, after the last point. The body multiplies the
  block by the weights, contracting the 1000 constants, and stores the 2048 × 128 product into rows
  t·2048 … t·2048 + 2047 of the result buffer; the other rows keep what they held.

  Since a point overwrites only its own rows, what the result buffer holds after a point is stated RELATIVE to
  what it held before: the former contents with the point's rows replaced by the product. The inputs' buffers
  are left as found. From these relations the launch gives that every execution terminates without a fault,
  leaves the argument arrays unchanged, and leaves the result array at contents obtained from the entry contents
  by the 8 replacements in order.
-/
import proofs.«164217_g72198400245902_cont_sun_c4_207_17_alg».proof.Proof.Gen.Kernel.Launch
import proofs.«164217_g72198400245902_cont_sun_c4_207_17_alg».proof.Proof.Gen.Kernel.Skeleton
import proofs.«164217_g72198400245902_cont_sun_c4_207_17_alg».proof.Proof.Gen.Kernel.Points
import proofs.«164217_g72198400245902_cont_sun_c4_207_17_alg».proof.Proof.Gen.Kernel.Frame
import proofs.«164217_g72198400245902_cont_sun_c4_207_17_alg».proof.Proof.LibSingleWrite
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

/-! ## The body's accesses -/

/-- The whole block of activations. -/
abbrev rX : Rect S1000x2048 := Rect.unit (s := S1000x2048) ![0, 0] S1000x2048.size Gen.inb_S1000x2048_S1000x2048_0_0
/-- The whole weight array. -/
abbrev rW : Rect S1000x128 := Rect.unit (s := S1000x128) ![0, 0] S1000x128.size Gen.inb_S1000x128_S1000x128_0_0
/-- The 2048 rows of the result buffer the point at coordinates `i` writes. -/
abbrev rowsAt (i : grid0.Coords) : Rect S16384x128 := Rect.unit (s := S16384x128) (k0_off1 i) S2048x128.size (Gen.k0_off1_inb i)

/-- The product the body stores, from the contents of the two input buffers. -/
abbrev product (x0 : Vec F S1000x2048 .f32) (x1 : Vec F S1000x128 .f32) : Vec F S2048x128 .f32 :=
  k0_pay1 (View.ld x0 rX) (View.ld x1 rW)

/-! ## The body's triple -/

set_option maxHeartbeats 1000000 in
/-- The body on whole buffers holding `x0`, `x1` and `y` runs to the continuation with the inputs as they were
    and the result buffer at `y` with the point's rows replaced by the product. -/
theorem sound_kernel (c : Dev nD) (E : Set ℕ) (i : grid0.Coords)
    (arg1 : Memref sig .tc .vmem S1000x2048 .f32) (harg1 : arg1.IsWhole)
    (arg2 : Memref sig .tc .vmem S1000x128 .f32) (harg2 : arg2.IsWhole)
    (arg3 : Memref sig .tc .vmem S16384x128 .f32) (harg3 : arg3.IsWhole)
    (x0 : Vec F S1000x2048 .f32) (x1 : Vec F S1000x128 .f32) (y : Vec F S16384x128 .f32) (K : PUnit → sProp 𝕄) :
    iprop(owns (c : Thread nD τ) arg1 fullShare x0 ∗ owns (c : Thread nD τ) arg2 fullShare x1 ∗ owns (c : Thread nD τ) arg3 fullShare y
        ∗ (iprop(owns (c : Thread nD τ) arg1 fullShare x0 ∗ owns (c : Thread nD τ) arg2 fullShare x1
            ∗ owns (c : Thread nD τ) arg3 fullShare ((rowsAt i).overlay y (product x0 x1))) -∗ K ⟨⟩))
      ⊢ wp frame (wpE (defs₀ (F := F)) Variants.none c none) E (cc0__matmul_body i arg1 harg1 arg2 harg2 arg3 harg3) K := by
  simp only [cc0__matmul_body_eq_skeleton]; unfold cc0__matmul_body_skel
  unfold owns
  iintro ⟨⟨%f0, %hf0, H0⟩, ⟨%f1, %hf1, H1⟩, ⟨%f2, %hf2, H2⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_single _ _ _ _

/-! ## The pipeline's proof data -/

variable (m : (ℓ : Loc nD τ sig) → Buf (Elt F) ℓ) (ρ : Dev nD → PrngReg)

/-- The proof data of the pipeline on core `c`: the arrays as the region finds them; each input's buffer left as
    found; the result buffer left as found but for the point's rows, which hold the product of the point's
    blocks; the invariant the scoped rest and the generator register, untouched; nothing owed; full shares. -/
def rdats (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = (rowsAt (grid0.coords t)).overlay Y (product (iblk m c 0 t) (iblk m c 1 t))
  Φ _ := Pipeline.ΦA spec0 c
  q _ := fullShare
  owed _ := 0

theorem A_eq (c : Dev nD) (w : Fin cfg0.W) : (rdats m c).A w = V m c (Pipeline.arrRef spec0 w) := by
  dsimp only [rdats]

theorem after0 (c : Dev nD) (t : Fin cfg0.N) (Y X) : (rdats m c).after 0 t Y X ↔ X = Y := by dsimp only [rdats]; exact Iff.rfl
theorem after1 (c : Dev nD) (t : Fin cfg0.N) (Y X) : (rdats m c).after 1 t Y X ↔ X = Y := by dsimp only [rdats]; exact Iff.rfl
theorem after2 (c : Dev nD) (t : Fin cfg0.N) (Y X) : (rdats m c).after 2 t Y X ↔
    X = (rowsAt (grid0.coords t)).overlay Y (product (iblk m c 0 t) (iblk m c 1 t)) := by dsimp only [rdats]; exact Iff.rfl

/-- Whatever the body may find in the activations' buffer at a point is that point's block. -/
theorem finds0 (c : Dev nD) (t : Fin cfg0.N) (Y) (h : (rdats m c).Finds 0 t Y) : Y = iblk m c 0 t := by
  obtain ⟨d, hd⟩ := Pipeline.RDat.finds_in_eq_fetched (rdats m c) 0 rfl (fun _ _ _ => rfl)
    (fun t Y X h => (after0 m c t Y X).mp h) t Y h
  rw [hd]; unfold RDat.fetched RDat.blockOf iblk; rw [A_eq]; try rfl

/-- Whatever the body may find in the weights' buffer at a point is the weight array: fetched at the first
    point and left in place since. -/
theorem finds1 (c : Dev nD) (t : Fin cfg0.N) (Y) (h : (rdats m c).Finds 1 t Y) : Y = iblk m c 1 t := by
  obtain ⟨d, hd⟩ := Pipeline.RDat.finds_in_eq_fetched (rdats m c) 1 rfl (fun _ _ _ => rfl)
    (fun t Y X h => (after1 m c t Y X).mp h) t Y h
  rw [hd]; unfold RDat.fetched RDat.blockOf iblk; rw [A_eq]; try rfl

/-! ## The body obligation -/

/-- The body at any point, on buffers holding what the pipeline may hand it. -/
theorem sound_body (c : Dev nD) (t : Fin cfg0.N) (Y : (w : Fin cfg0.W) → (cfg0.win w).block.Idx → Elt F (cfg0.win w).elt)
    (hY : ∀ w, (rdats m c).Finds w t (Y w)) :
    iprop((rdats m c).Φ t.castSucc ∗ (rdats m c).owesAt () t.castSucc
        ∗ owns (c : Thread nD τ) (st0_0 t) fullShare (Y 0) ∗ owns (c : Thread nD τ) (st0_1 t) fullShare (Y 1)
        ∗ owns (c : Thread nD τ) (st0_2 t) fullShare (Y 2))
      ⊢ wp frame (wpE (defs₀ (F := F)) Variants.none c none) Set.univ (bodyAt0 t) (fun _ =>
          iprop((rdats m c).Φ t.succ ∗ (rdats m c).owesAt () t.succ
            ∗ (∃ X, ⌜(rdats m c).after 0 t (Y 0) X⌝ ∗ owns (c : Thread nD τ) (st0_0 t) fullShare X)
            ∗ (∃ X, ⌜(rdats m c).after 1 t (Y 1) X⌝ ∗ owns (c : Thread nD τ) (st0_1 t) fullShare X)
            ∗ (∃ X, ⌜(rdats m c).after 2 t (Y 2) X⌝ ∗ owns (c : Thread nD τ) (st0_2 t) fullShare X))) := by
  have h0 := finds0 m c t (Y 0) (hY 0)
  have h1 := finds1 m c t (Y 1) (hY 1)
  unfold bodyAt0
  rw [show (rdats m c).Φ t.succ = (rdats m c).Φ t.castSucc from rfl,
    show (rdats m c).owesAt () t.succ = (rdats m c).owesAt () t.castSucc from rfl]
  iintro ⟨HΦ, Ho, H0, H1, H2⟩
  iapply (sound_kernel c Set.univ _ _ _ _ _ _ _ (Y 0) (Y 1) (Y 2) _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists _; isplitr; · ipureintro; exact (after0 m c t _ _).mpr rfl
    iexact H0
  isplitl [H1]
  · iexists _; isplitr; · ipureintro; exact (after1 m c t _ _).mpr rfl
    iexact H1
  iexists _; isplitr
  · ipureintro; rw [after2, ← h0, ← h1]
  iexact H2

/-- The library's body obligation, at every point. -/
theorem body_obligation (c : Dev nD) : (rdats (F := F) m c).BodyObligation (defs₀ (F := F)) Variants.none () Set.univ := fun t Y hY => by
  rw [bigSep_W0, bigSep_W0]
  exact sound_body m c t Y hY

/-! ## The run and the frame -/

set_option backward.isDefEq.respectTransparency.types false in
/-- Every weakly fair execution of @main terminates, and every final state has each array of the pipeline at
    contents the relations allow and every other unscoped buffer as the region found it. -/
theorem run_main : θ_run defs (onTc (τ := τ) (main (F := F))) (s₀ m ρ) (Pipeline.RDat.FramePost cfg0 (rdats m) (V m)) :=
  Pipeline.RDat.θ_run_frame cfgs (0 : Fin 1) launch0 defs₀ Variants.none (rdats m) m ρ main
    (hbody := fun c => body_obligation m c) (hshare := fun c => (rdats m c).share_full fun _ => rfl)
    (howed := fun _ _ => rfl) (V := V m) (hmain := hmain m Variants.none) (hA := A_eq m) (hΦ := fun _ _ => rfl)

/-- The argument arrays end unchanged: the weights are an input of the pipeline, never written; the activations
    bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      (show _ = _ from (congrFun ((rdats m c).ArrAt_in 1 rfl _) _).mp ((h c).1 1)).trans ((A_eq m c 1).trans (V_main_arg1 m c))⟩) (run_main m ρ)

end Cert.Kernel.Body

end
-- ==== Proof.IdealBody.lean ====
/-
  The kernel's body and its launch, at any reading of the floats.

  The grid has 8 points. Point t is handed three buffers: a 1000 × 2048 block of the transposed activations
  (columns t·2048 … t·2048 + 2047), the whole 1000 × 128 weight array, and the whole 16384 × 128 result buffer,
  which stays resident over the grid and is written back once, after the last point. The body multiplies the
  block by the weights, contracting the 1000 constants, and stores the 2048 × 128 product into rows
  t·2048 … t·2048 + 2047 of the result buffer; the other rows keep what they held.

  Since a point overwrites only its own rows, what the result buffer holds after a point is stated RELATIVE to
  what it held before: the former contents with the point's rows replaced by the product. The inputs' buffers
  are left as found. From these relations the launch gives that every execution terminates without a fault,
  leaves the argument arrays unchanged, and leaves the result array at contents obtained from the entry contents
  by the 8 replacements in order.
-/
import proofs.«164217_g72198400245902_cont_sun_c4_207_17_alg».proof.Proof.Gen.KernelIdeal.Launch
import proofs.«164217_g72198400245902_cont_sun_c4_207_17_alg».proof.Proof.Gen.KernelIdeal.Skeleton
import proofs.«164217_g72198400245902_cont_sun_c4_207_17_alg».proof.Proof.Gen.KernelIdeal.Points
import proofs.«164217_g72198400245902_cont_sun_c4_207_17_alg».proof.Proof.Gen.KernelIdeal.Frame
import proofs.«164217_g72198400245902_cont_sun_c4_207_17_alg».proof.Proof.LibSingleWrite
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-! ## The body's accesses -/

/-- The whole block of activations. -/
abbrev rX : Rect S1000x2048 := Rect.unit (s := S1000x2048) ![0, 0] S1000x2048.size Gen.inb_S1000x2048_S1000x2048_0_0
/-- The whole weight array. -/
abbrev rW : Rect S1000x128 := Rect.unit (s := S1000x128) ![0, 0] S1000x128.size Gen.inb_S1000x128_S1000x128_0_0
/-- The 2048 rows of the result buffer the point at coordinates `i` writes. -/
abbrev rowsAt (i : grid0.Coords) : Rect S16384x128 := Rect.unit (s := S16384x128) (k0_off1 i) S2048x128.size (Gen.k0_off1_inb i)

/-- The product the body stores, from the contents of the two input buffers. -/
abbrev product (x0 : Vec F S1000x2048 .f32) (x1 : Vec F S1000x128 .f32) : Vec F S2048x128 .f32 :=
  k0_pay1 (View.ld x0 rX) (View.ld x1 rW)

/-! ## The body's triple -/

set_option maxHeartbeats 1000000 in
/-- The body on whole buffers holding `x0`, `x1` and `y` runs to the continuation with the inputs as they were
    and the result buffer at `y` with the point's rows replaced by the product. -/
theorem sound_kernel (c : Dev nD) (E : Set ℕ) (i : grid0.Coords)
    (arg1 : Memref sig .tc .vmem S1000x2048 .f32) (harg1 : arg1.IsWhole)
    (arg2 : Memref sig .tc .vmem S1000x128 .f32) (harg2 : arg2.IsWhole)
    (arg3 : Memref sig .tc .vmem S16384x128 .f32) (harg3 : arg3.IsWhole)
    (x0 : Vec F S1000x2048 .f32) (x1 : Vec F S1000x128 .f32) (y : Vec F S16384x128 .f32) (K : PUnit → sProp 𝕄) :
    iprop(owns (c : Thread nD τ) arg1 fullShare x0 ∗ owns (c : Thread nD τ) arg2 fullShare x1 ∗ owns (c : Thread nD τ) arg3 fullShare y
        ∗ (iprop(owns (c : Thread nD τ) arg1 fullShare x0 ∗ owns (c : Thread nD τ) arg2 fullShare x1
            ∗ owns (c : Thread nD τ) arg3 fullShare ((rowsAt i).overlay y (product x0 x1))) -∗ K ⟨⟩))
      ⊢ wp frame (wpE (defs₀ (F := F)) Variants.none c none) E (cc0__matmul_body i arg1 harg1 arg2 harg2 arg3 harg3) K := by
  simp only [cc0__matmul_body_eq_skeleton]; unfold cc0__matmul_body_skel
  unfold owns
  iintro ⟨⟨%f0, %hf0, H0⟩, ⟨%f1, %hf1, H1⟩, ⟨%f2, %hf2, H2⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_single _ _ _ _

/-! ## The pipeline's proof data -/

variable (m : (ℓ : Loc nD τ sig) → Buf (Elt F) ℓ) (ρ : Dev nD → PrngReg)

/-- The proof data of the pipeline on core `c`: the arrays as the region finds them; each input's buffer left as
    found; the result buffer left as found but for the point's rows, which hold the product of the point's
    blocks; the invariant the scoped rest and the generator register, untouched; nothing owed; full shares. -/
def rdats (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = (rowsAt (grid0.coords t)).overlay Y (product (iblk m c 0 t) (iblk m c 1 t))
  Φ _ := Pipeline.ΦA spec0 c
  q _ := fullShare
  owed _ := 0

theorem A_eq (c : Dev nD) (w : Fin cfg0.W) : (rdats m c).A w = V m c (Pipeline.arrRef spec0 w) := by
  dsimp only [rdats]

theorem after0 (c : Dev nD) (t : Fin cfg0.N) (Y X) : (rdats m c).after 0 t Y X ↔ X = Y := by dsimp only [rdats]; exact Iff.rfl
theorem after1 (c : Dev nD) (t : Fin cfg0.N) (Y X) : (rdats m c).after 1 t Y X ↔ X = Y := by dsimp only [rdats]; exact Iff.rfl
theorem after2 (c : Dev nD) (t : Fin cfg0.N) (Y X) : (rdats m c).after 2 t Y X ↔
    X = (rowsAt (grid0.coords t)).overlay Y (product (iblk m c 0 t) (iblk m c 1 t)) := by dsimp only [rdats]; exact Iff.rfl

/-- Whatever the body may find in the activations' buffer at a point is that point's block. -/
theorem finds0 (c : Dev nD) (t : Fin cfg0.N) (Y) (h : (rdats m c).Finds 0 t Y) : Y = iblk m c 0 t := by
  obtain ⟨d, hd⟩ := Pipeline.RDat.finds_in_eq_fetched (rdats m c) 0 rfl (fun _ _ _ => rfl)
    (fun t Y X h => (after0 m c t Y X).mp h) t Y h
  rw [hd]; unfold RDat.fetched RDat.blockOf iblk; rw [A_eq]; try rfl

/-- Whatever the body may find in the weights' buffer at a point is the weight array: fetched at the first
    point and left in place since. -/
theorem finds1 (c : Dev nD) (t : Fin cfg0.N) (Y) (h : (rdats m c).Finds 1 t Y) : Y = iblk m c 1 t := by
  obtain ⟨d, hd⟩ := Pipeline.RDat.finds_in_eq_fetched (rdats m c) 1 rfl (fun _ _ _ => rfl)
    (fun t Y X h => (after1 m c t Y X).mp h) t Y h
  rw [hd]; unfold RDat.fetched RDat.blockOf iblk; rw [A_eq]; try rfl

/-! ## The body obligation -/

/-- The body at any point, on buffers holding what the pipeline may hand it. -/
theorem sound_body (c : Dev nD) (t : Fin cfg0.N) (Y : (w : Fin cfg0.W) → (cfg0.win w).block.Idx → Elt F (cfg0.win w).elt)
    (hY : ∀ w, (rdats m c).Finds w t (Y w)) :
    iprop((rdats m c).Φ t.castSucc ∗ (rdats m c).owesAt () t.castSucc
        ∗ owns (c : Thread nD τ) (st0_0 t) fullShare (Y 0) ∗ owns (c : Thread nD τ) (st0_1 t) fullShare (Y 1)
        ∗ owns (c : Thread nD τ) (st0_2 t) fullShare (Y 2))
      ⊢ wp frame (wpE (defs₀ (F := F)) Variants.none c none) Set.univ (bodyAt0 t) (fun _ =>
          iprop((rdats m c).Φ t.succ ∗ (rdats m c).owesAt () t.succ
            ∗ (∃ X, ⌜(rdats m c).after 0 t (Y 0) X⌝ ∗ owns (c : Thread nD τ) (st0_0 t) fullShare X)
            ∗ (∃ X, ⌜(rdats m c).after 1 t (Y 1) X⌝ ∗ owns (c : Thread nD τ) (st0_1 t) fullShare X)
            ∗ (∃ X, ⌜(rdats m c).after 2 t (Y 2) X⌝ ∗ owns (c : Thread nD τ) (st0_2 t) fullShare X))) := by
  have h0 := finds0 m c t (Y 0) (hY 0)
  have h1 := finds1 m c t (Y 1) (hY 1)
  unfold bodyAt0
  rw [show (rdats m c).Φ t.succ = (rdats m c).Φ t.castSucc from rfl,
    show (rdats m c).owesAt () t.succ = (rdats m c).owesAt () t.castSucc from rfl]
  iintro ⟨HΦ, Ho, H0, H1, H2⟩
  iapply (sound_kernel c Set.univ _ _ _ _ _ _ _ (Y 0) (Y 1) (Y 2) _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists _; isplitr; · ipureintro; exact (after0 m c t _ _).mpr rfl
    iexact H0
  isplitl [H1]
  · iexists _; isplitr; · ipureintro; exact (after1 m c t _ _).mpr rfl
    iexact H1
  iexists _; isplitr
  · ipureintro; rw [after2, ← h0, ← h1]
  iexact H2

/-- The library's body obligation, at every point. -/
theorem body_obligation (c : Dev nD) : (rdats (F := F) m c).BodyObligation (defs₀ (F := F)) Variants.none () Set.univ := fun t Y hY => by
  rw [bigSep_W0, bigSep_W0]
  exact sound_body m c t Y hY

/-! ## The run and the frame -/

set_option backward.isDefEq.respectTransparency.types false in
/-- Every weakly fair execution of @main terminates, and every final state has each array of the pipeline at
    contents the relations allow and every other unscoped buffer as the region found it. -/
theorem run_main : θ_run defs (onTc (τ := τ) (main (F := F))) (s₀ m ρ) (Pipeline.RDat.FramePost cfg0 (rdats m) (V m)) :=
  Pipeline.RDat.θ_run_frame cfgs (0 : Fin 1) launch0 defs₀ Variants.none (rdats m) m ρ main
    (hbody := fun c => body_obligation m c) (hshare := fun c => (rdats m c).share_full fun _ => rfl)
    (howed := fun _ _ => rfl) (V := V m) (hmain := hmain m Variants.none) (hA := A_eq m) (hΦ := fun _ _ => rfl)

/-- The argument arrays end unchanged: the weights are an input of the pipeline, never written; the activations
    bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      (show _ = _ from (congrFun ((rdats m c).ArrAt_in 1 rfl _) _).mp ((h c).1 1)).trans ((A_eq m c 1).trans (V_main_arg1 m c))⟩) (run_main m ρ)

end Cert.KernelIdeal.Body

end
-- ==== Proof.IdealProduct.lean ====
/-
  The product a grid point stores, read at an entry, on the extended reals.

  The body contracts the 1000 constants, the LEADING axis of both blocks: with x the 1000 × 2048 block of
  transposed activations and w the 1000 × 128 weights, entry (p, n) of the stored 2048 × 128 array is the sum over
  k of x (k, p) · w (k, n). The two narrowing casts before the product are the identity on the extended reals, and
  the product accumulates into zero.
-/
import proofs.«164217_g72198400245902_cont_sun_c4_207_17_alg».proof.Proof.IdealBody
import Idealize.ShloMosaic.Lib.ValueIdx
import Idealize.ShloMosaic.Lib.Pipeline.Value
import Idealize.ShloMosaic.PureOps.Ideal.Laws

noncomputable section

namespace Cert.KernelIdeal.BodyValue

open Idealize.ShloMosaic Idealize.ShloMosaic.ValueIdx
open Cert.KernelIdeal Cert.KernelIdeal.Gen Cert.KernelIdeal.Body

/-- Both whole-buffer loads start at offsets zero. -/
theorem zero_offsets : (![0, 0] : Fin 2 → Nat) = fun _ => 0 := funext fun a => by fin_cases a <;> rfl

/-- The left operand is read at (contraction position, result row): -/
theorem lhs_0 (j : S2048x128.Idx) (q : dot_S1000x2048_S1000x128_S2048x128_0_0_1_1_n_n.contr.Idx) :
    (dot_S1000x2048_S1000x128_S2048x128_0_0_1_1_n_n.lhsIdx j q 0).val = (q ⟨0, by decide⟩).val :=
  dot_S1000x2048_S1000x128_S2048x128_0_0_1_1_n_n.lhsIdx_val_of_single rfl j q
theorem lhs_1 (j : S2048x128.Idx) (q : dot_S1000x2048_S1000x128_S2048x128_0_0_1_1_n_n.contr.Idx) :
    (dot_S1000x2048_S1000x128_S2048x128_0_0_1_1_n_n.lhsIdx j q 1).val = (j 0).val := by
  unfold DotDims.lhsIdx
  rw [dif_neg (show ¬(1 : Fin S1000x2048.rank) ∈ dot_S1000x2048_S1000x128_S2048x128_0_0_1_1_n_n.lhsBatch by decide), dif_pos (show (1 : Fin S1000x2048.rank) ∈ dot_S1000x2048_S1000x128_S2048x128_0_0_1_1_n_n.lhsNonContracting by decide)]
  rfl
/-- the right operand at (contraction position, result column). -/
theorem rhs_0 (j : S2048x128.Idx) (q : dot_S1000x2048_S1000x128_S2048x128_0_0_1_1_n_n.contr.Idx) :
    (dot_S1000x2048_S1000x128_S2048x128_0_0_1_1_n_n.rhsIdx j q 0).val = (q ⟨0, by decide⟩).val :=
  dot_S1000x2048_S1000x128_S2048x128_0_0_1_1_n_n.rhsIdx_val_of_single rfl j q
theorem rhs_1 (j : S2048x128.Idx) (q : dot_S1000x2048_S1000x128_S2048x128_0_0_1_1_n_n.contr.Idx) :
    (dot_S1000x2048_S1000x128_S2048x128_0_0_1_1_n_n.rhsIdx j q 1).val = (j 1).val := by
  unfold DotDims.rhsIdx
  rw [dif_neg (show ¬(1 : Fin S1000x128.rank) ∈ dot_S1000x2048_S1000x128_S2048x128_0_0_1_1_n_n.rhsBatch by decide), dif_pos (show (1 : Fin S1000x128.rank) ∈ dot_S1000x2048_S1000x128_S2048x128_0_0_1_1_n_n.rhsNonContracting by decide)]
  rfl

/-- Entry (p, n) of the stored product: the sum over the 1000 constants k of x0 (k, p) · x1 (k, n). -/
theorem product_apply (x0 : Vec Ideal S1000x2048 .f32) (x1 : Vec Ideal S1000x128 .f32) (p : Fin 2048) (n : Fin 128) :
    product (F := Ideal) x0 x1 (ix2 p n) = ∑ k : Fin 1000, x0 (ix2 k p) * x1 (ix2 k n) := by
  unfold product k0_pay1
  rw [View.ld_unit_zero (S := S1000x2048) zero_offsets, View.ld_unit_zero (S := S1000x128) zero_offsets, shapeCast_self]
  simp only [matmul, Ideal.truncf_def]
  rw [Ideal.matmul_constant_zero_apply, ← Equiv.sum_comp (contrEquiv1 dot_S1000x2048_S1000x128_S2048x128_0_0_1_1_n_n 1000 rfl rfl).symm]
  refine Finset.sum_congr rfl fun k _ => ?_
  have hk := contrEquiv1_symm_val dot_S1000x2048_S1000x128_S2048x128_0_0_1_1_n_n 1000 rfl rfl k
  have el : dot_S1000x2048_S1000x128_S2048x128_0_0_1_1_n_n.lhsIdx (ix2 p n) ((contrEquiv1 dot_S1000x2048_S1000x128_S2048x128_0_0_1_1_n_n 1000 rfl rfl).symm k) = ix2 k p := funext fun a => Fin.ext (by
    match a with
    | ⟨0, _⟩ => exact (lhs_0 _ _).trans hk
    | ⟨1, _⟩ => exact lhs_1 _ _)
  have er : dot_S1000x2048_S1000x128_S2048x128_0_0_1_1_n_n.rhsIdx (ix2 p n) ((contrEquiv1 dot_S1000x2048_S1000x128_S2048x128_0_0_1_1_n_n 1000 rfl rfl).symm k) = ix2 k n := funext fun a => Fin.ext (by
    match a with
    | ⟨0, _⟩ => exact (rhs_0 _ _).trans hk
    | ⟨1, _⟩ => exact rhs_1 _ _)
  rw [el, er, truncf_apply, truncf_apply]

end Cert.KernelIdeal.BodyValue

end
-- ==== Proof.IdealBlocks.lean ====
/-
  The two input blocks of a grid point, read off the argument arrays.

  The region's first operand is the transpose of the activations, a 1000 × 16384 array; point t takes its columns
  t·2048 … t·2048 + 2047, so entry (k, p) of the block is the activations' entry (t·2048 + p, k). The second
  operand is the weight array itself, the same at every point.
-/
import proofs.«164217_g72198400245902_cont_sun_c4_207_17_alg».proof.Proof.IdealBody
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.BodyValue

open Idealize.ShloMosaic Idealize.ShloMosaic.TcCoe Idealize.ShloMosaic.ValueIdx Idealize.SL.Sem Idealize.ShloMosaic.StableHlo
open Cert.KernelIdeal Cert.KernelIdeal.Gen Cert.KernelIdeal.Body

variable {F : FTy → Type} [FloatOps F]
variable (m : (ℓ : Loc nD τ sig) → Buf (Elt F) ℓ)

/-- The region finds, in its first operand, the transpose of the activations. -/
theorem V_transposed (c : Dev nD) :
    (V m c main_v0 : S1000x16384.Idx → Elt F .f32)
      = transpose S1000x16384 [1, 0] (m ((c : Thread nD τ).loc main_arg0)) Gen.transposes_S16384x1000_S1000x16384_1_0 := by
  dsimp only [Gen.V, Gen.hostOps0]; after_results

/-- The activations' window sits at block (0, t) at point t; the weights' at (0, 0). -/
theorem index_facts : ∀ t : Fin cfg0.N,
    win0_0.index t (0 : Fin 2) = 0 ∧ win0_0.index t (1 : Fin 2) = t.val
    ∧ win0_1.index t (0 : Fin 2) = 0 ∧ win0_1.index t (1 : Fin 2) = 0 :=
  (by decide +kernel : ∀ t : Fin grid0.N, _)

/-- Entry (k, p) of the activations' block at point t is the activations' entry (r, k), r = t·2048 + p. -/
theorem blockX_apply (c : Dev nD) (t : Fin cfg0.N) (k : Fin 1000) (p : Fin 2048) (r : Fin 16384)
    (hr : r.val = t.val * 2048 + p.val) :
    iblk m c 0 t (ix2 k p) = m ((c : Thread nD τ).loc main_arg0) (ix2 r k) := by
  have e : iblk m c 0 t (ix2 k p) = V m c main_v0 (ix2 k r) := by
    show V m c main_v0 (((cfg0.win 0).blk t).view.emb (ix2 k p)) = V m c main_v0 (ix2 k r)
    refine congrArg _ (funext fun a => Fin.ext ?_)
    obtain ⟨e0, e1, -, -⟩ := index_facts t
    match a with
    | ⟨0, _⟩ => show win0_0.index t 0 * 1000 + 1 * k.val = k.val; rw [e0]; omega
    | ⟨1, _⟩ => show win0_0.index t 1 * 2048 + 1 * p.val = r.val; rw [e1, hr]; omega
  rw [e, V_transposed, transpose_ix2_apply]

/-- Entry (k, n) of the weights' block at any point is the weights' entry (k, n). -/
theorem blockW_apply (c : Dev nD) (t : Fin cfg0.N) (k : Fin 1000) (n : Fin 128) :
    iblk m c 1 t (ix2 k n) = m ((c : Thread nD τ).loc main_arg1) (ix2 k n) := by
  have e : iblk m c 1 t (ix2 k n) = V m c main_arg1 (ix2 k n) := by
    show V m c main_arg1 (((cfg0.win 1).blk t).view.emb (ix2 k n)) = V m c main_arg1 (ix2 k n)
    refine congrArg _ (funext fun a => Fin.ext ?_)
    obtain ⟨-, -, e0, e1⟩ := index_facts t
    match a with
    | ⟨0, _⟩ => show win0_1.index t 0 * 1000 + 1 * k.val = k.val; rw [e0]; omega
    | ⟨1, _⟩ => show win0_1.index t 1 * 128 + 1 * n.val = n.val; rw [e1]; omega
  rw [e, V_main_arg1]

end Cert.KernelIdeal.BodyValue

end
-- ==== Proof.IdealFinal.lean ====
/-
  What the result array holds after the run, on the extended reals: the product of the two argument arrays.

  Point t replaces rows t·2048 … t·2048 + 2047 of the resident result buffer by the product of its blocks, which
  is the whole product's rows there (entry (p, n) of the stored array is the sum over k of the activations'
  (t·2048 + p, k) times the weights' (k, n)). By induction on the point, after point t every row below (t + 1)·2048
  holds the product, whatever the buffer held at the start: a row of the point's own range was just stored, a lower
  row was left as found and held the product already. After the last point that is every row, and the one
  write-back, of the whole buffer, puts it in the result array.
-/
import proofs.«164217_g72198400245902_cont_sun_c4_207_17_alg».proof.Proof.IdealBody
import proofs.«164217_g72198400245902_cont_sun_c4_207_17_alg».proof.Proof.IdealProduct
import proofs.«164217_g72198400245902_cont_sun_c4_207_17_alg».proof.Proof.IdealBlocks
import proofs.«164217_g72198400245902_cont_sun_c4_207_17_alg».proof.Proof.MatmulSpec

set_option maxRecDepth 16384

noncomputable section

namespace Cert.KernelIdeal.BodyValue

open Idealize.ShloMosaic Idealize.ShloMosaic.TcCoe Idealize.ShloMosaic.ValueIdx Idealize.SL.Sem
open Idealize.ShloMosaic.Pipeline (RDat)
open Cert.KernelIdeal Cert.KernelIdeal.Gen Cert.KernelIdeal.Body

variable (m : (ℓ : Loc nD τ sig) → Buf (Elt Ideal) ℓ)

/-- The product of the two argument arrays on core `c`. -/
abbrev target (c : Dev nD) : S16384x128.Idx → EReal :=
  Cert.MatmulSpec.prod (m ((c : Thread nD τ).loc main_arg0)) (m ((c : Thread nD τ).loc main_arg1))

/-- Point t's rows start at row t·2048, column 0. -/
theorem row_offsets : ∀ t : Fin cfg0.N,
    k0_off1 (grid0.coords t) (0 : Fin 2) = t.val * 2048 ∧ k0_off1 (grid0.coords t) (1 : Fin 2) = 0 :=
  (by decide +kernel : ∀ t : Fin grid0.N, _)

/-- The result's buffer is never fetched into. -/
theorem out_not_fetched : ∀ t : Fin cfg0.N, (cfg0.win 2).fetch t = false :=
  (by decide +kernel : ∀ t : Fin grid0.N, win0_2.fetch t = false)

/-- The result's window sits at block (0, 0) at every point: its block is the whole array. -/
theorem out_index : ∀ t : Fin cfg0.N, win0_2.index t (0 : Fin 2) = 0 ∧ win0_2.index t (1 : Fin 2) = 0 :=
  (by decide +kernel : ∀ t : Fin grid0.N, _)

theorem point_lt (t : Fin cfg0.N) : t.val < 8 := lt_of_lt_of_eq t.isLt N_0

/-- What point t stores is the product's rows there: entry x of the stored array is the product at x's place in
    the buffer. -/
theorem stored_eq (c : Dev nD) (t : Fin cfg0.N) (x : S2048x128.Idx) :
    product (F := Ideal) (iblk m c 0 t) (iblk m c 1 t) x = target m c ((rowsAt (grid0.coords t)).emb x) := by
  obtain ⟨p, n, rfl⟩ : ∃ (p : Fin 2048) (n : Fin 128), x = ix2 p n := ⟨x 0, x 1, eq_ix2 x⟩
  obtain ⟨o0, o1⟩ := row_offsets t
  have h8 := point_lt t
  have hp := p.isLt
  have hr : t.val * 2048 + p.val < 16384 := by omega
  have hemb : (rowsAt (grid0.coords t)).emb (ix2 p n) = ix2 (⟨t.val * 2048 + p.val, hr⟩ : Fin 16384) n := funext fun a => Fin.ext (by
    match a with
    | ⟨0, _⟩ => show k0_off1 (grid0.coords t) 0 + 1 * p.val = t.val * 2048 + p.val; rw [o0]; omega
    | ⟨1, _⟩ => show k0_off1 (grid0.coords t) 1 + 1 * n.val = n.val; rw [o1]; omega)
  rw [hemb, product_apply]
  show _ = Cert.MatmulSpec.entry _ _ (⟨t.val * 2048 + p.val, hr⟩ : Fin 16384) n
  unfold Cert.MatmulSpec.entry
  refine Finset.sum_congr rfl fun k _ => ?_
  rw [blockX_apply m c t k p ⟨t.val * 2048 + p.val, hr⟩ rfl, blockW_apply m c t k n] <;> rfl

/-- Every row below (t + 1)·2048 holds the product. -/
def FilledTo (c : Dev nD) (t : Fin cfg0.N) (X : S16384x128.Idx → EReal) : Prop :=
  ∀ j : S16384x128.Idx, (j 0).val < (t.val + 1) * 2048 → X j = target m c j

/-- Whatever the body may leave in the result's buffer at point t has every row below (t + 1)·2048 at the
    product. -/
theorem leaves_filled (c : Dev nD) : ∀ (t : Fin cfg0.N) (X : S16384x128.Idx → EReal),
    (rdats m c).Leaves 2 t X → FilledTo m c t X := by
  intro t
  induction hn : t.val using Nat.strong_induction_on generalizing t with
  | _ n ih =>
    subst hn
    intro X hX
    obtain ⟨Y, hY, hR⟩ := hX
    rw [after2] at hR
    subst hR
    intro j hj
    obtain ⟨o0, o1⟩ := row_offsets t
    have h8 := point_lt t
    by_cases hmem : j ∈ (rowsAt (grid0.coords t)).set
    · obtain ⟨x, rfl⟩ : ∃ x, (rowsAt (grid0.coords t)).emb x = j := (rowsAt (grid0.coords t)).exists_idx_of_mem hmem
      rw [Rect.overlay_emb]
      exact stored_eq m c t x
    · rw [Rect.overlay_of_not_mem _ _ _ hmem]
      have hlow : (j 0).val < t.val * 2048 := by
        by_contra hge
        apply hmem
        rw [Rect.mem_set_unit]
        intro a
        match a with
        | ⟨0, _⟩ =>
          show k0_off1 (grid0.coords t) 0 ≤ (j 0).val ∧ (j 0).val < k0_off1 (grid0.coords t) 0 + 2048
          rw [o0]; omega
        | ⟨1, _⟩ =>
          show k0_off1 (grid0.coords t) 1 ≤ (j 1).val ∧ (j 1).val < k0_off1 (grid0.coords t) 1 + 128
          rw [o1]; have := idx2_lt1 j; omega
      have ht : t.val ≠ 0 := by intro h0; rw [h0] at hlow; omega
      rcases ((rdats m c).finds_of_pos (out_not_fetched t) ht Y).mp hY with hfl | hL
      · rw [flush0_2] at hfl
        have : (t.val - 1) % 8 = 7 := hfl
        omega
      · exact ih (t.val - 1) (by omega) ⟨t.val - 1, Nat.lt_of_le_of_lt (Nat.sub_le _ _) t.isLt⟩ rfl Y hL j
          (by show (j 0).val < (t.val - 1 + 1) * 2048; rw [Nat.sub_add_cancel (Nat.pos_of_ne_zero ht)]; exact hlow)

/-- Before the last point nothing has been written back: the result array holds its entry contents. -/
theorem arrAt_before_last (c : Dev nD) : ∀ n, n ≤ 7 → ∀ X, (rdats m c).ArrAt 2 n X → X = (rdats m c).A 2
  | 0, _, X, h => h
  | n + 1, hn, X, h => by
    have hlt : n < cfg0.N := by rw [show cfg0.N = 8 from N_0]; omega
    have hfl : ¬ ((cfg0.win 2).flush ⟨n, hlt⟩ = true) := by
      rw [flush0_2]; show ¬ (n % 8 = 7); omega
    simp only [RDat.ArrAt] at h
    rw [dif_pos hlt, if_neg hfl] at h
    exact arrAt_before_last c n (by omega) X h

/-- A write-back of the whole buffer puts the buffer's contents in the array: the result's block is the whole
    array at every point. -/
theorem written_back (c : Dev nD) (t : Fin cfg0.N) (G₀ : Buf (Elt Ideal) (((cfg0.win 2).arr.view.loc (c.tc : Thread nD τ))))
    (X' : S16384x128.Idx → EReal) :
    ((cfg0.win 2).blk t).view.write (Elt Ideal) G₀ ((cfg0.win 2).cut (grid0.coords t) X') Finset.univ = X' := by
  obtain ⟨i0, i1⟩ := out_index t
  funext j
  have hemb : ((cfg0.win 2).blk t).view.emb j = j := funext fun a => Fin.ext (by
    match a with
    | ⟨0, _⟩ => show win0_2.index t 0 * 16384 + 1 * (j 0).val = (j 0).val; rw [i0]; omega
    | ⟨1, _⟩ => show win0_2.index t 1 * 128 + 1 * (j 1).val = (j 1).val; rw [i1]; omega)
  have hw := View.write_emb (v := ((cfg0.win 2).blk t).view) G₀ ((cfg0.win 2).cut (grid0.coords t) X') Finset.univ j
  rw [hemb, if_pos (Finset.mem_univ j)] at hw
  rw [hw]
  exact cast_eq _ _

/-- THE RESULT ARRAY after the run: whatever contents the relations allow it are the product. -/
theorem final (c : Dev nD) (X : S16384x128.Idx → EReal) (h : (rdats m c).ArrAt 2 cfg0.N X) : X = target m c := by
  have h8 : cfg0.N = 7 + 1 := N_0
  rw [h8] at h
  have hlt : 7 < cfg0.N := by rw [show cfg0.N = 8 from N_0]; decide
  have hfl : (cfg0.win 2).flush ⟨7, hlt⟩ = true := (flush0_2 ⟨7, hlt⟩).mpr rfl
  simp only [RDat.ArrAt] at h
  rw [dif_pos hlt, if_pos hfl] at h
  generalize hlast : (⟨7, hlt⟩ : Fin cfg0.N) = last at h
  have hv : last.val = 7 := by rw [← hlast]
  obtain ⟨G₀, X', -, hL, rfl⟩ := h
  have hfill := leaves_filled m c last X' hL
  rw [written_back]
  funext j
  exact hfill j (by have := idx2_lt0 j; rw [hv]; omega)

/-- THE KERNEL'S RUN on the extended reals: every weakly fair execution terminates with the result array at the
    product of the argument arrays, and the argument arrays unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v1) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨final m c _ ((h c).1 2),
      ((h c).2 main_arg0 (Pipeline.mem_restRefs_of main_arg0 (by decide) (by decide))).trans (V_main_arg0 m c),
      (show _ = _ from (congrFun ((rdats m c).ArrAt_in 1 rfl _) _).mp ((h c).1 1)).trans ((A_eq m c 1).trans (V_main_arg1 m c))⟩)
    (run_main m ρ)

end Cert.KernelIdeal.BodyValue

end
-- ==== Proof.RefProduct.lean ====
/-
  The reference is the product: its one operation, a general dot contracting the activations' second axis with
  the weights' first, read at entry (r, n) on the extended reals, is the sum over k of x (r, k) · w (k, n).
-/
import proofs.«164217_g72198400245902_cont_sun_c4_207_17_alg».proof.Proof.Gen.ReferenceIdeal.Read
import proofs.«164217_g72198400245902_cont_sun_c4_207_17_alg».proof.Proof.MatmulSpec

noncomputable section

namespace Cert.ReferenceIdeal.RefValue

open Idealize.ShloMosaic Idealize.ShloMosaic.ValueIdx
open Cert.ReferenceIdeal Cert.ReferenceIdeal.Gen Cert.ReferenceIdeal.Read

/-- The reference's result term is the product of its two arguments, index by index. -/
theorem result_eq (x0 : FVec Ideal S16384x1000 .f32) (x1 : FVec Ideal S1000x128 .f32) :
    Host.dotGeneral dot_S16384x1000_S1000x128_S16384x128_1_0_0_1_n_n none x0 x1 = (Cert.MatmulSpec.prod x0 x1 : S16384x128.Idx → EReal) := by
  funext i
  rw [val_main_v0_eq, val_main_v0_apply]
  show _ = ∑ k : Fin 1000, x0 (ix2 (i 0) k) * x1 (ix2 k (i 1))
  refine Finset.sum_congr rfl fun k _ => ?_
  have el : lidx_main_v0 i k = ix2 (i 0) k := funext fun a => Fin.ext (by
    match a with
    | ⟨0, _⟩ => rfl
    | ⟨1, _⟩ => rfl)
  have er : ridx_main_v0 i k = ix2 k (i 1) := funext fun a => Fin.ext (by
    match a with
    | ⟨0, _⟩ => rfl
    | ⟨1, _⟩ => rfl)
  rw [el, er]
  rfl

end Cert.ReferenceIdeal.RefValue

end
-- ==== Proof.lean ====
/-
  The claim: a kernel that multiplies a 16384 × 1000 array of activations by a 1000 × 128 array of weights, 2048
  rows per grid point into a result buffer that stays resident over the grid, against the plain matrix product.

  On the extended reals both compute, at entry (r, n), the sum over the 1000 constants k of x (r, k) · w (k, n):
  the kernel's narrowing casts are the identity there, its product accumulates into zero, and reading the
  transposed activations at (k, r) is reading the activations at (r, k). No finiteness is used: the two sums have
  the same terms in the same order.

  The three runs: the kernel's, at either reading of the floats, from the body's relation between the result
  buffer before and after a point (the point's rows replaced, the others kept); the reference's from its one
  operation. The idealization rewrote nothing, so the conjunct about it is trivial.
-/
import proofs.«164217_g72198400245902_cont_sun_c4_207_17_alg».proof.Defs
import proofs.«164217_g72198400245902_cont_sun_c4_207_17_alg».proof.Proof.Gen.Kernel
import proofs.«164217_g72198400245902_cont_sun_c4_207_17_alg».proof.Proof.Gen.KernelIdeal
import proofs.«164217_g72198400245902_cont_sun_c4_207_17_alg».proof.Proof.Gen.ReferenceIdeal
import proofs.«164217_g72198400245902_cont_sun_c4_207_17_alg».proof.Proof.Gen.Pre_finite_inputs
import proofs.«164217_g72198400245902_cont_sun_c4_207_17_alg».proof.Proof.Gen.ReferenceIdeal.Run
import proofs.«164217_g72198400245902_cont_sun_c4_207_17_alg».proof.Proof.Gen.ReferenceIdeal.Read
import proofs.«164217_g72198400245902_cont_sun_c4_207_17_alg».proof.Proof.MatmulSpec
import proofs.«164217_g72198400245902_cont_sun_c4_207_17_alg».proof.Proof.BitsBody
import proofs.«164217_g72198400245902_cont_sun_c4_207_17_alg».proof.Proof.IdealBody
import proofs.«164217_g72198400245902_cont_sun_c4_207_17_alg».proof.Proof.IdealFinal
import proofs.«164217_g72198400245902_cont_sun_c4_207_17_alg».proof.Proof.RefProduct
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Body.frame m ρ

/-- So does its reading on the extended reals. -/
theorem frame_kernelIdeal : Cert.frame_KernelIdeal := fun m ρ _ => Cert.KernelIdeal.Body.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end with the product of the argument arrays. -/
theorem algebraic : Cert.algebraic_KernelIdeal_ReferenceIdeal := by
  intro m ρ m' ρ' _ hagree
  refine ⟨fun c => Cert.KernelIdeal.BodyValue.target m c, Cert.KernelIdeal.BodyValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
